-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S1048576x128 .f32) (main_arg1 : IVec S1048576 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S1048576x128 : Shape := ⟨2, ![1048576, 128]⟩
abbrev S1048576 : Shape := ⟨1, ![1048576]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S8192x128 : Shape := ⟨2, ![8192, 128]⟩
abbrev S_ : Shape := ⟨0, ![]⟩
abbrev S50000x128 : Shape := ⟨2, ![50000, 128]⟩
abbrev S1048576x1 : Shape := ⟨2, ![1048576, 1]⟩
abbrev S50000x1 : Shape := ⟨2, ![50000, 1]⟩
abbrev S53248x128 : Shape := ⟨2, ![53248, 128]⟩
abbrev S4096x128 : Shape := ⟨2, ![4096, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 54
  | .vmem => 16
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1x128, .f32⟩
  | .hbm, ⟨13, _⟩ => ⟨S1048576x128, .bf16⟩
  | .hbm, ⟨14, _⟩ => ⟨S1048576x128, .f32⟩
  | .hbm, ⟨15, _⟩ => ⟨S_, .f32⟩
  | .hbm, ⟨16, _⟩ => ⟨S50000x128, .f32⟩
  | .hbm, ⟨17, _⟩ => ⟨S1048576x1, .i32⟩
  | .hbm, ⟨18, _⟩ => ⟨S50000x128, .f32⟩
  | .hbm, ⟨19, _⟩ => ⟨S_, .f32⟩
  | .hbm, ⟨20, _⟩ => ⟨S1048576, .f32⟩
  | .hbm, ⟨21, _⟩ => ⟨S_, .f32⟩
  | .hbm, ⟨22, _⟩ => ⟨S50000, .f32⟩
  | .hbm, ⟨23, _⟩ => ⟨S1048576x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S_, .f32⟩
  | .hbm, ⟨33, _⟩ => ⟨S53248x128, .f32⟩
  | .hbm, ⟨34, _⟩ => ⟨S1x128, .f32⟩
  | .hbm, ⟨35, _⟩ => ⟨S1x128, .f32⟩
  | .hbm, ⟨36, _⟩ => ⟨S53248x128, .f32⟩
  | .hbm, ⟨37, _⟩ => ⟨S50000x128, .f32⟩
  | .hbm, ⟨38, _⟩ => ⟨S_, .f32⟩
  | .hbm, ⟨39, _⟩ => ⟨S2000x128, .f32⟩
  | .hbm, ⟨40, _⟩ => ⟨S50000x1, .i32⟩
  | .hbm, ⟨41, _⟩ => ⟨S2000x128, .f32⟩
  | .hbm, ⟨42, _⟩ => ⟨S_, .f32⟩
  | .hbm, ⟨43, _⟩ => ⟨S50000, .f32⟩
  | .hbm, ⟨44, _⟩ => ⟨S_, .f32⟩
  | .hbm, ⟨45, _⟩ => ⟨S2000, .f32⟩
  | .hbm, ⟨46, _⟩ => ⟨S50000x1, .i32⟩
  | .hbm, ⟨47, _⟩ => ⟨S2000, .f32⟩
  | .hbm, ⟨48, _⟩ => ⟨S_, .f32⟩
  | .hbm, ⟨49, _⟩ => ⟨S2000, .f32⟩
  | .hbm, ⟨50, _⟩ => ⟨S2000, .f32⟩
  | .hbm, ⟨51, _⟩ => ⟨S2000x1, .f32⟩
  | .hbm, ⟨52, _⟩ => ⟨S2000x128, .f32⟩
  | .hbm, ⟨53, _⟩ => ⟨S2000x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S8192x128, .bf16⟩
  | .local _ .vmem, ⟨7, _⟩ => ⟨S8192x128, .bf16⟩
  | .local _ .vmem, ⟨8, _⟩ => ⟨S4096x128, .f32⟩
  | .local _ .vmem, ⟨9, _⟩ => ⟨S4096x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4096x128, .f32⟩
  | .local _ .vmem, ⟨15, _⟩ => ⟨S4096x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  packedbf16_S8192x128_S8192x128_0_0 : (Rect.unit (s := S8192x128) ![0, 0] S8192x128.size inb_S8192x128_S8192x128_0_0).PackedRows (EltTy.packing .bf16)
  bcast_S_S50000x128 : S_.BroadcastsInDim S50000x128 (![] : Fin 0 → Fin S50000x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  pads_S50000x128_S53248x128_032480_000 : S50000x128.Pads (![0, 0] : Fin 2 → Nat) ![3248, 0] ![0, 0] S53248x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  slices_S53248x128_S50000x128_0_0 : S53248x128.Slices ![0, 0] S50000x128
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  dot_S8192x128_S128x128_S8192x128_1_1_0_0_n_n_wf : DotDims.WF S8192x128 S128x128 S8192x128 [1] [1] [0] [0] [] []
  scatter_S50000x128_S1048576x1_S1048576x128_1_0_0_1_wf : ScatterDims.WF S50000x128 S1048576x1 S1048576x128 [1] [0] [0] 1
  scatter_S50000_S1048576x1_S1048576_n_0_0_1_wf : ScatterDims.WF S50000 S1048576x1 S1048576 [] [0] [0] 1
  dot_S4096x128_S128x128_S4096x128_1_1_0_0_n_n_wf : DotDims.WF S4096x128 S128x128 S4096x128 [1] [1] [0] [0] [] []
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S1048576x128.size a
  hwx0_5 : ∀ i : grid0.Coords, EltTy.bits .bf16 = 32 ∨ (Rect.block (s := S1048576x128) S8192x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S53248x128.size a
  hwx1_0 : ∀ i : grid1.Coords, EltTy.bits .f32 = 32 ∨ (Rect.block (s := S53248x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S53248x128.size a
  hwx1_5 : ∀ i : grid1.Coords, EltTy.bits .f32 = 32 ∨ (Rect.block (s := S53248x128) S4096x128.size (cc1_transform_5 i) (hinb1_5 i)).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def scatter_S50000x128_S1048576x1_S1048576x128_1_0_0_1 : ScatterDims S50000x128 S1048576x1 S1048576x128 where
  updateWindowDims := [1]
  insertedWindowDims := [0]
  scatterDimsToOperandDims := [0]
  indexVectorDim := 1
  wf := scatter_S50000x128_S1048576x1_S1048576x128_1_0_0_1_wf
def scatter_S50000_S1048576x1_S1048576_n_0_0_1 : ScatterDims S50000 S1048576x1 S1048576 where
  updateWindowDims := []
  insertedWindowDims := [0]
  scatterDimsToOperandDims := [0]
  indexVectorDim := 1
  wf := scatter_S50000_S1048576x1_S1048576_n_0_0_1_wf
def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1048576x128 : Shape := ⟨2, ![1048576, 128]⟩
abbrev S1048576 : Shape := ⟨1, ![1048576]⟩
abbrev S50000 : Shape := ⟨1, ![50000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000x128 : Shape := ⟨2, ![50000, 128]⟩
abbrev S1048576x1 : Shape := ⟨2, ![1048576, 1]⟩
abbrev S50000x1 : Shape := ⟨2, ![50000, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 69
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1048576x128, .f32⟩
  | .hbm, ⟨13, _⟩ => ⟨S1x128, .f32⟩
  | .hbm, ⟨14, _⟩ => ⟨S1048576x128, .f32⟩
  | .hbm, ⟨15, _⟩ => ⟨S1048576x128, .f32⟩
  | .hbm, ⟨16, _⟩ => ⟨S_, .f32⟩
  | .hbm, ⟨17, _⟩ => ⟨S1048576x128, .f32⟩
  | .hbm, ⟨18, _⟩ => ⟨S1048576x128, .f32⟩
  | .hbm, ⟨19, _⟩ => ⟨S128x128, .f32⟩
  | .hbm, ⟨20, _⟩ => ⟨S1048576x128, .f32⟩
  | .hbm, ⟨21, _⟩ => ⟨S1x128, .f32⟩
  | .hbm, ⟨22, _⟩ => ⟨S1048576x128, .f32⟩
  | .hbm, ⟨23, _⟩ => ⟨S1048576x128, .f32⟩
  | .hbm, ⟨24, _⟩ => ⟨S_, .f32⟩
  | .hbm, ⟨25, _⟩ => ⟨S50000x128, .f32⟩
  | .hbm, ⟨26, _⟩ => ⟨S1048576x1, .i32⟩
  | .hbm, ⟨27, _⟩ => ⟨S50000x128, .f32⟩
  | .hbm, ⟨28, _⟩ => ⟨S_, .f32⟩
  | .hbm, ⟨29, _⟩ => ⟨S1048576, .f32⟩
  | .hbm, ⟨30, _⟩ => ⟨S_, .f32⟩
  | .hbm, ⟨31, _⟩ => ⟨S50000, .f32⟩
  | .hbm, ⟨32, _⟩ => ⟨S1048576x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S2000x128, .f32⟩
  | .hbm, ⟨55, _⟩ => ⟨S50000x1, .i32⟩
  | .hbm, ⟨56, _⟩ => ⟨S2000x128, .f32⟩
  | .hbm, ⟨57, _⟩ => ⟨S_, .f32⟩
  | .hbm, ⟨58, _⟩ => ⟨S50000, .f32⟩
  | .hbm, ⟨59, _⟩ => ⟨S_, .f32⟩
  | .hbm, ⟨60, _⟩ => ⟨S2000, .f32⟩
  | .hbm, ⟨61, _⟩ => ⟨S50000x1, .i32⟩
  | .hbm, ⟨62, _⟩ => ⟨S2000, .f32⟩
  | .hbm, ⟨63, _⟩ => ⟨S_, .f32⟩
  | .hbm, ⟨64, _⟩ => ⟨S2000, .f32⟩
  | .hbm, ⟨65, _⟩ => ⟨S2000, .f32⟩
  | .hbm, ⟨66, _⟩ => ⟨S2000x1, .f32⟩
  | .hbm, ⟨67, _⟩ => ⟨S2000x128, .f32⟩
  | .hbm, ⟨68, _⟩ => ⟨S2000x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S_S50000x128 : S_.BroadcastsInDim S50000x128 (![] : Fin 0 → Fin S50000x128.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  dot_S1048576x128_S128x128_S1048576x128_1_0_0_1_n_n_wf : DotDims.WF S1048576x128 S128x128 S1048576x128 [1] [0] [0] [1] [] []
  scatter_S50000x128_S1048576x1_S1048576x128_1_0_0_1_wf : ScatterDims.WF S50000x128 S1048576x1 S1048576x128 [1] [0] [0] 1
  scatter_S50000_S1048576x1_S1048576_n_0_0_1_wf : ScatterDims.WF S50000 S1048576x1 S1048576 [] [0] [0] 1
  dot_S50000x128_S128x128_S50000x128_1_0_0_1_n_n_wf : DotDims.WF S50000x128 S128x128 S50000x128 [1] [0] [0] [1] [] []
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1

variable [Facts₀]

def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def scatter_S50000x128_S1048576x1_S1048576x128_1_0_0_1 : ScatterDims S50000x128 S1048576x1 S1048576x128 where
  updateWindowDims := [1]
  insertedWindowDims := [0]
  scatterDimsToOperandDims := [0]
  indexVectorDim := 1
  wf := scatter_S50000x128_S1048576x1_S1048576x128_1_0_0_1_wf
def scatter_S50000_S1048576x1_S1048576_n_0_0_1 : ScatterDims S50000 S1048576x1 S1048576 where
  updateWindowDims := []
  insertedWindowDims := [0]
  scatterDimsToOperandDims := [0]
  indexVectorDim := 1
  wf := scatter_S50000_S1048576x1_S1048576_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf

class Facts : Prop extends Facts₀ where

variable [Facts]
-- ==== Proof.MlpRow.lean ====
/-
  One row of a two-layer perceptron over the extended reals.

  For an input row `x` of 128 entries, weights `w1, w2` stored output-major (`w k l` multiplies input `l` into
  output `k`) and biases `b1, b2`:
    hidden unit `k`  =  max (∑ l, x l * w1 k l + b1 k) 0,
    output `q`       =  ∑ k, hidden k * w2 q k + b2 q.
  The zero of the rectifier is kept as the float word it is printed with; both programs print the same word.
  An output entry depends on ONE row of the input only: rows are independent, which is what lets a row-padded
  array be processed and the padding cut off afterwards.
-/
import Idealize.ShloMosaic.PureOps.Ideal
import Idealize.ShloMosaic.PureOps.Ideal.Laws
import Idealize.ShloMosaic.Lib.ValueIdx

noncomputable section

open scoped BigOperators

namespace Cert.Mlp

open Idealize.ShloMosaic

/-- Hidden unit `k` of the row `x`: the rectified affine form. -/
def hidden (x : Fin 128 → EReal) (w : Fin 128 → Fin 128 → EReal) (b : Fin 128 → EReal) (k : Fin 128) : EReal :=
  max ((∑ l : Fin 128, x l * w k l) + b k) (Ideal.ofBits .f32 0x00000000#32)

/-- Output entry `q` of the row `x`: the second affine form of the hidden units. -/
def row (x : Fin 128 → EReal) (w1 : Fin 128 → Fin 128 → EReal) (b1 : Fin 128 → EReal)
    (w2 : Fin 128 → Fin 128 → EReal) (b2 : Fin 128 → EReal) (q : Fin 128) : EReal :=
  (∑ k : Fin 128, hidden x w1 b1 k * w2 q k) + b2 q

/-- The row function only sees the row: equal rows give equal outputs. -/
theorem row_congr {x x' : Fin 128 → EReal} (h : ∀ l, x l = x' l) (w1 : Fin 128 → Fin 128 → EReal) (b1 : Fin 128 → EReal)
    (w2 : Fin 128 → Fin 128 → EReal) (b2 : Fin 128 → EReal) (q : Fin 128) :
    row x w1 b1 w2 b2 q = row x' w1 b1 w2 b2 q := by
  rw [show x = x' from funext h]

/-- The perceptron applied to every row of an `[M, 128]` array: entry `(r, q)` is output `q` of row `r`. The weights are
    `[128, 128]` arrays stored output-major, the biases functions of the output position. -/
def arr {M : ℕ} (X : (⟨2, ![M, 128]⟩ : Shape).Idx → EReal) (W1 : (⟨2, ![128, 128]⟩ : Shape).Idx → EReal) (b1 : Fin 128 → EReal)
    (W2 : (⟨2, ![128, 128]⟩ : Shape).Idx → EReal) (b2 : Fin 128 → EReal) : (⟨2, ![M, 128]⟩ : Shape).Idx → EReal :=
  fun i => row (fun l => X (ValueIdx.ix2 (i 0 : Fin M) l)) (fun k l => W1 (ValueIdx.ix2 k l)) b1 (fun k l => W2 (ValueIdx.ix2 k l)) b2 (i 1 : Fin 128)

theorem arr_apply {M : ℕ} (X : (⟨2, ![M, 128]⟩ : Shape).Idx → EReal) (W1 : (⟨2, ![128, 128]⟩ : Shape).Idx → EReal) (b1 : Fin 128 → EReal)
    (W2 : (⟨2, ![128, 128]⟩ : Shape).Idx → EReal) (b2 : Fin 128 → EReal) (p : Fin M) (q : Fin 128) :
    arr X W1 b1 W2 b2 (ValueIdx.ix2 p q)
      = row (fun l => X (ValueIdx.ix2 p l)) (fun k l => W1 (ValueIdx.ix2 k l)) b1 (fun k l => W2 (ValueIdx.ix2 k l)) b2 q := rfl

end Cert.Mlp

end
-- ==== Proof.KPayload.lean ====
/-
  The two kernel bodies' stored values, entry by entry.

  Each body loads a block of rows, both weight matrices and both bias rows, and stores
    (max (x · w1ᵀ + b1) 0) · w2ᵀ + b2
  computed with two matrix products into zero accumulators. Changes of float format are the identity on the extended
  reals, a product into a zero accumulator is the plain sum over the contracted axis, and a bias row spread over the
  rows reads its own entry: so entry `(p, q)` of the stored block is the perceptron's output `q` of the block's row `p`.
-/
import proofs.«111494_j4363686773150_2_alg».proof.Proof.Gen.KernelIdeal.Skeleton
import proofs.«111494_j4363686773150_2_alg».proof.Proof.MlpRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## Region 0: blocks of 8192 rows -/

/-- The matrix product's dimension numbers: both operands contract their second axis. -/
abbrev D0 := dot_S8192x128_S128x128_S8192x128_1_1_0_0_n_n

theorem lhs0_0 (i : S8192x128.Idx) (q : D0.contr.Idx) : (D0.lhsIdx i q 0).val = (i 0).val := by
  unfold DotDims.lhsIdx
  rw [dif_neg (show ¬(0 : Fin S8192x128.rank) ∈ D0.lhsBatch by decide), dif_pos (show (0 : Fin S8192x128.rank) ∈ D0.lhsNonContracting by decide)]
  rfl
theorem lhs0_1 (i : S8192x128.Idx) (q : D0.contr.Idx) : (D0.lhsIdx i q 1).val = (q ⟨0, by decide⟩).val :=
  D0.lhsIdx_val_of_single rfl i q
theorem rhs0_0 (i : S8192x128.Idx) (q : D0.contr.Idx) : (D0.rhsIdx i q 0).val = (i 1).val := by
  unfold DotDims.rhsIdx
  rw [dif_neg (show ¬(0 : Fin S128x128.rank) ∈ D0.rhsBatch by decide), dif_pos (show (0 : Fin S128x128.rank) ∈ D0.rhsNonContracting by decide)]
  rfl
theorem rhs0_1 (i : S8192x128.Idx) (q : D0.contr.Idx) : (D0.rhsIdx i q 1).val = (q ⟨0, by decide⟩).val :=
  D0.rhsIdx_val_of_single rfl i q

/-- The product into a zero accumulator, read at `(p, q)`: row `p` of the left operand against row `q` of the right one. -/
theorem matmul0_apply (a : FVec Ideal S8192x128 .bf16) (b : FVec Ideal S128x128 .bf16) (p : Fin 8192) (q : Fin 128) :
    matmul D0 none a b (constant (F := Ideal) S8192x128 .f32 0x00000000#32) (ix2 p q)
      = ∑ k : Fin 128, a (ix2 p k) * b (ix2 q k) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 128 rfl rfl).symm k) = ix2 q k := funext fun a => Fin.ext (by
    match a with
    | ⟨0, _⟩ => exact rhs0_0 _ _
    | ⟨1, _⟩ => exact (rhs0_1 _ _).trans hk)
  rw [el, er]

/-- The bias row, cast to itself and spread over the block's rows, read at `(p, q)`: the row's entry `q`. -/
theorem bias0_apply (x : Vec Ideal S1x128 .f32) (p : Fin 8192) (q : Fin 128) :
    broadcastTo S8192x128 (shapeCast S1x128 x Facts₀.shapeCasts_S1x128_S1x128) Facts₀.broadcasts_S1x128_S8192x128 (ix2 p q) = x (ix2 (0 : Fin 1) q) := by
  rw [shapeCast_self]
  exact broadcastTo_1b_ab_apply x Facts₀.broadcasts_S1x128_S8192x128 p q

/-- What the body stores, at `(p, q)` of its block: the perceptron's output `q` of the block's row `p`. -/
theorem pay0_apply (x0 : Vec Ideal S8192x128 .f32) (x1 : Vec Ideal S128x128 .f32) (x2 : Vec Ideal S1x128 .f32)
    (x3 : Vec Ideal S128x128 .f32) (x4 : Vec Ideal S1x128 .f32) (p : Fin 8192) (q : Fin 128) :
    k0_pay1 (F := Ideal) x0 x1 x2 x3 x4 (ix2 p q)
      = Mlp.row (fun l => x0 (ix2 p l)) (fun k l => x1 (ix2 k l)) (fun k => x2 (ix2 (0 : Fin 1) k))
          (fun k l => x3 (ix2 k l)) (fun k => x4 (ix2 (0 : Fin 1) k)) q := by
  unfold k0_pay1 Mlp.row Mlp.hidden
  refine (congrArg₂ (· + ·) (matmul0_apply _ _ p q) (bias0_apply x4 p q)).trans ?_
  refine congrArg (· + x4 (ix2 (0 : Fin 1) q)) (Finset.sum_congr rfl fun k _ => ?_)
  refine congrArg (· * x3 (ix2 q k)) ?_
  refine (congrArg₂ max (congrArg₂ (· + ·) (matmul0_apply _ _ p k) (bias0_apply x2 p k)) rfl).trans ?_
  rfl

/-! ## Region 1: blocks of 4096 rows -/

/-- The matrix product's dimension numbers: both operands contract their second axis. -/
abbrev D1 := dot_S4096x128_S128x128_S4096x128_1_1_0_0_n_n

theorem lhs1_0 (i : S4096x128.Idx) (q : D1.contr.Idx) : (D1.lhsIdx i q 0).val = (i 0).val := by
  unfold DotDims.lhsIdx
  rw [dif_neg (show ¬(0 : Fin S4096x128.rank) ∈ D1.lhsBatch by decide), dif_pos (show (0 : Fin S4096x128.rank) ∈ D1.lhsNonContracting by decide)]
  rfl
theorem lhs1_1 (i : S4096x128.Idx) (q : D1.contr.Idx) : (D1.lhsIdx i q 1).val = (q ⟨0, by decide⟩).val :=
  D1.lhsIdx_val_of_single rfl i q
theorem rhs1_0 (i : S4096x128.Idx) (q : D1.contr.Idx) : (D1.rhsIdx i q 0).val = (i 1).val := by
  unfold DotDims.rhsIdx
  rw [dif_neg (show ¬(0 : Fin S128x128.rank) ∈ D1.rhsBatch by decide), dif_pos (show (0 : Fin S128x128.rank) ∈ D1.rhsNonContracting by decide)]
  rfl
theorem rhs1_1 (i : S4096x128.Idx) (q : D1.contr.Idx) : (D1.rhsIdx i q 1).val = (q ⟨0, by decide⟩).val :=
  D1.rhsIdx_val_of_single rfl i q

/-- The product into a zero accumulator, read at `(p, q)`: row `p` of the left operand against row `q` of the right one. -/
theorem matmul1_apply (a : FVec Ideal S4096x128 .bf16) (b : FVec Ideal S128x128 .bf16) (p : Fin 4096) (q : Fin 128) :
    matmul D1 none a b (constant (F := Ideal) S4096x128 .f32 0x00000000#32) (ix2 p q)
      = ∑ k : Fin 128, a (ix2 p k) * b (ix2 q k) := by
  simp only [matmul]
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 p q) ((contrEquiv1 D1 128 rfl rfl).symm k) = ix2 p k := funext fun a => Fin.ext (by
    match a with
    | ⟨0, _⟩ => exact lhs1_0 _ _
    | ⟨1, _⟩ => exact (lhs1_1 _ _).trans hk)
  have er : D1.rhsIdx (ix2 p q) ((contrEquiv1 D1 128 rfl rfl).symm k) = ix2 q k := funext fun a => Fin.ext (by
    match a with
    | ⟨0, _⟩ => exact rhs1_0 _ _
    | ⟨1, _⟩ => exact (rhs1_1 _ _).trans hk)
  rw [el, er]

/-- The bias row, cast to itself and spread over the block's rows, read at `(p, q)`: the row's entry `q`. -/
theorem bias1_apply (x : Vec Ideal S1x128 .f32) (p : Fin 4096) (q : Fin 128) :
    broadcastTo S4096x128 (shapeCast S1x128 x Facts₀.shapeCasts_S1x128_S1x128) Facts₀.broadcasts_S1x128_S4096x128 (ix2 p q) = x (ix2 (0 : Fin 1) q) := by
  rw [shapeCast_self]
  exact broadcastTo_1b_ab_apply x Facts₀.broadcasts_S1x128_S4096x128 p q

/-- What the body stores, at `(p, q)` of its block: the perceptron's output `q` of the block's row `p`. -/
theorem pay1_apply (x0 : Vec Ideal S4096x128 .f32) (x1 : Vec Ideal S128x128 .f32) (x2 : Vec Ideal S1x128 .f32)
    (x3 : Vec Ideal S128x128 .f32) (x4 : Vec Ideal S1x128 .f32) (p : Fin 4096) (q : Fin 128) :
    k1_pay1 (F := Ideal) x0 x1 x2 x3 x4 (ix2 p q)
      = Mlp.row (fun l => x0 (ix2 p l)) (fun k l => x1 (ix2 k l)) (fun k => x2 (ix2 (0 : Fin 1) k))
          (fun k l => x3 (ix2 k l)) (fun k => x4 (ix2 (0 : Fin 1) k)) q := by
  unfold k1_pay1 Mlp.row Mlp.hidden
  refine (congrArg₂ (· + ·) (matmul1_apply _ _ p q) (bias1_apply x4 p q)).trans ?_
  refine congrArg (· + x4 (ix2 (0 : Fin 1) q)) (Finset.sum_congr rfl fun k _ => ?_)
  refine congrArg (· * x3 (ix2 q k)) ?_
  refine (congrArg₂ max (congrArg₂ (· + ·) (matmul1_apply _ _ p k) (bias1_apply x2 p k)) rfl).trans ?_
  rw [shapeCast_self]
  rfl

end Cert.KernelIdeal.Payload

end
-- ==== Proof.KBlocks.lean ====
/-
  From blocks to arrays: what each pallas_call leaves in its output array.

  Each call walks a one-axis grid; at point `t` it stages rows `B·t … B·t + B − 1` of its input array (the weights and
  the bias rows whole), runs the body, and writes the body's stored block back to the same rows of the output array.
  The stored block's entry `(p, q)` is the perceptron's output `q` of the block's row `p`, which is row `B·t + p` of the
  input array; the blocks tile the output array (row `r` lies in block `r / B`). So the output array ends holding the
  perceptron of every row of the input array. Stated for any contents `V` of the buffers at the region's entry.
-/
import proofs.«111494_j4363686773150_2_alg».proof.Proof.Gen.KernelIdeal.Frame
import proofs.«111494_j4363686773150_2_alg».proof.Proof.KPayload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 0: 128 blocks of 8192 rows of an `[1048576, 128]` array -/

/-- The printed index maps over the grid: the row-block windows sit at block `(t, 0)`, the weights' and biases' at `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `y` of the input's block at point `t` is entry `(8192 t + y₀, y₁)` of the array. -/
theorem iblk0_0_apply (c : Dev nD) (t : Fin cfg0.N) (y : S8192x128.Idx) (i : S1048576x128.Idx)
    (h0 : (i 0).val = t.val * 8192 + (y 0).val) (h1 : (i 1).val = (y 1).val) :
    (iblk0 V c 0 t : Vec Ideal S8192x128 .f32) y = (V c main_arg0 : S1048576x128.Idx → EReal) i := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t (0 : Fin 2) * 8192 + 1 * (y 0).val = (i 0).val; rw [e0, h0]; omega
  | ⟨1, _⟩ => show win0_0.index t (1 : Fin 2) * 128 + 1 * (y 1).val = (i 1).val; rw [e1, h1]; omega

/-- A weight window's one block is its whole array. -/
theorem iblk0_1_eq (c : Dev nD) (t : Fin cfg0.N) :
    (iblk0 V c 1 t : Vec Ideal S128x128 .f32) = (V c main_arg3 : S128x128.Idx → EReal) := by
  obtain ⟨-, -, e0, e1, -⟩ := idx0 t
  funext y
  unfold iblk0
  rw [View.read_apply]
  show V c main_arg3 _ = V c main_arg3 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega
theorem iblk0_2_eq (c : Dev nD) (t : Fin cfg0.N) :
    (iblk0 V c 2 t : Vec Ideal S1x128 .f32) = (V c main_v0 : S1x128.Idx → EReal) := by
  obtain ⟨-, -, -, -, e0, e1, -⟩ := idx0 t
  funext y
  unfold iblk0
  rw [View.read_apply]
  show V c main_v0 _ = V c main_v0 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega
theorem iblk0_3_eq (c : Dev nD) (t : Fin cfg0.N) :
    (iblk0 V c 3 t : Vec Ideal S128x128 .f32) = (V c main_arg5 : S128x128.Idx → EReal) := by
  obtain ⟨-, -, -, -, -, -, e0, e1, -⟩ := idx0 t
  funext y
  unfold iblk0
  rw [View.read_apply]
  show V c main_arg5 _ = V c main_arg5 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega
theorem iblk0_4_eq (c : Dev nD) (t : Fin cfg0.N) :
    (iblk0 V c 4 t : Vec Ideal S1x128 .f32) = (V c main_v1 : S1x128.Idx → EReal) := by
  obtain ⟨-, -, -, -, -, -, -, -, e0, e1, -⟩ := idx0 t
  funext y
  unfold iblk0
  rw [View.read_apply]
  show V c main_v1 _ = V c main_v1 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- What the region leaves in its output array: the perceptron of every row of its input array as the region finds it,
    with the weights and the bias rows as the region finds them. -/
def G0 (c : Dev nD) : S1048576x128.Idx → EReal :=
  Mlp.arr (V c main_arg0 : S1048576x128.Idx → EReal) (V c main_arg3 : S128x128.Idx → EReal) (fun k => (V c main_v0 : S1x128.Idx → EReal) (ix2 (0 : Fin 1) k))
    (V c main_arg5 : S128x128.Idx → EReal) (fun k => (V c main_v1 : S1x128.Idx → EReal) (ix2 (0 : Fin 1) k))

/-- What point `t` writes back is block `t` of that function. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S8192x128) hz, View.ld_unit_zero (S := S128x128) hz, View.ld_unit_zero (S := S1x128) hz]
  rw [iblk0_1_eq, iblk0_2_eq, iblk0_3_eq, iblk0_4_eq]
  obtain ⟨-, -, -, -, -, -, -, -, -, -, e0, e1⟩ := idx0 t
  have hN : cfg0.N = 128 := N_0
  funext (y : S8192x128.Idx)
  obtain ⟨p, q, rfl⟩ : ∃ (p : Fin 8192) (q : Fin 128), y = ix2 p q := ⟨y 0, y 1, eq_ix2 y⟩
  have hp : t.val * 8192 + p.val < 1048576 := by have := t.isLt; have := p.isLt; omega
  have hemb : ((cfg0.win 5).blk t).view.emb (ix2 p q) = (ix2 (⟨t.val * 8192 + p.val, hp⟩ : Fin 1048576) q : S1048576x128.Idx) := by
    funext a; apply Fin.ext
    match a with
    | ⟨0, _⟩ => show win0_5.index t (0 : Fin 2) * 8192 + 1 * p.val = t.val * 8192 + p.val; rw [e0]; omega
    | ⟨1, _⟩ => show win0_5.index t (1 : Fin 2) * 128 + 1 * q.val = q.val; rw [e1]; omega
  rw [View.read_apply, hemb]
  refine (Payload.pay0_apply _ _ _ _ _ p q).trans ?_
  unfold G0
  rw [Mlp.arr_apply]
  refine Mlp.row_congr (fun l => ?_) _ _ _ _ q
  exact iblk0_0_apply V c t (ix2 p l) (ix2 (⟨t.val * 8192 + p.val, hp⟩ : Fin 1048576) l) rfl rfl

/-- Every row of the array lies in the block of the point `row / 8192`. -/
theorem cover0 (c : Dev nD) (i : S1048576x128.Idx) :
    ∃ t : Fin cfg0.N, (cfg0.win 5).flush t = true ∧ i ∈ ((cfg0.win 5).blk t).view.set := by
  have hi0 : (i 0).val < 1048576 := idx2_lt0 i
  have hi1 : (i 1).val < 128 := idx2_lt1 i
  have hN : cfg0.N = 128 := N_0
  have ht : (i 0).val / 8192 < cfg0.N := by rw [hN]; omega
  obtain ⟨-, -, -, -, -, -, -, -, -, -, e0, e1⟩ := idx0 ⟨(i 0).val / 8192, ht⟩
  refine ⟨⟨(i 0).val / 8192, ht⟩, flush0_5 _, ?_⟩
  show i ∈ ((View.whole main_v2).slice (win0_5.rect ⟨(i 0).val / 8192, ht⟩)).set
  rw [View.set_slice_whole, Rect.mem_set_unit]
  intro a
  match a with
  | ⟨0, _⟩ =>
    show win0_5.index ⟨(i 0).val / 8192, ht⟩ (0 : Fin 2) * 8192 ≤ (i 0).val ∧ (i 0).val < win0_5.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_5.index ⟨(i 0).val / 8192, ht⟩ (1 : Fin 2) * 128 ≤ (i 1).val ∧ (i 1).val < win0_5.index ⟨(i 0).val / 8192, ht⟩ (1 : Fin 2) * 128 + 128
    rw [e1]; omega

/-- So the output array ends holding that function, whole. -/
theorem final0 (c : Dev nD) : (dat0 V c).arrAt 5 cfg0.N = G0 V c :=
  (dat0 V c).arrAt_eq_of_cover 5 (G0 V c) (fun t _ => flushed0 V c t) (cover0 c)

/-! ## Region 1: 13 blocks of 4096 rows of an `[53248, 128]` array -/

/-- The printed index maps over the grid: the row-block windows sit at block `(t, 0)`, the weights' and biases' at `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry `y` of the input's block at point `t` is entry `(4096 t + y₀, y₁)` of the array. -/
theorem iblk1_0_apply (c : Dev nD) (t : Fin cfg1.N) (y : S4096x128.Idx) (i : S53248x128.Idx)
    (h0 : (i 0).val = t.val * 4096 + (y 0).val) (h1 : (i 1).val = (y 1).val) :
    (iblk1 V c 0 t : Vec Ideal S4096x128 .f32) y = (V c main_v16 : S53248x128.Idx → EReal) i := by
  obtain ⟨e0, e1, -⟩ := idx1 t
  unfold iblk1
  rw [View.read_apply]
  show V c main_v16 _ = V c main_v16 _
  refine congrArg _ (funext fun a => Fin.ext ?_)
  match a with
  | ⟨0, _⟩ => show win1_0.index t (0 : Fin 2) * 4096 + 1 * (y 0).val = (i 0).val; rw [e0, h0]; omega
  | ⟨1, _⟩ => show win1_0.index t (1 : Fin 2) * 128 + 1 * (y 1).val = (i 1).val; rw [e1, h1]; omega

/-- A weight window's one block is its whole array. -/
theorem iblk1_1_eq (c : Dev nD) (t : Fin cfg1.N) :
    (iblk1 V c 1 t : Vec Ideal S128x128 .f32) = (V c main_arg7 : S128x128.Idx → EReal) := by
  obtain ⟨-, -, e0, e1, -⟩ := idx1 t
  funext y
  unfold iblk1
  rw [View.read_apply]
  show V c main_arg7 _ = V c main_arg7 y
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega
theorem iblk1_2_eq (c : Dev nD) (t : Fin cfg1.N) :
    (iblk1 V c 2 t : Vec Ideal S1x128 .f32) = (V c main_v17 : S1x128.Idx → EReal) := by
  obtain ⟨-, -, -, -, e0, e1, -⟩ := idx1 t
  funext y
  unfold iblk1
  rw [View.read_apply]
  show V c main_v17 _ = V c main_v17 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega
theorem iblk1_3_eq (c : Dev nD) (t : Fin cfg1.N) :
    (iblk1 V c 3 t : Vec Ideal S128x128 .f32) = (V c main_arg9 : S128x128.Idx → EReal) := by
  obtain ⟨-, -, -, -, -, -, e0, e1, -⟩ := idx1 t
  funext y
  unfold iblk1
  rw [View.read_apply]
  show V c main_arg9 _ = V c main_arg9 y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega
theorem iblk1_4_eq (c : Dev nD) (t : Fin cfg1.N) :
    (iblk1 V c 4 t : Vec Ideal S1x128 .f32) = (V c main_v18 : S1x128.Idx → EReal) := by
  obtain ⟨-, -, -, -, -, -, -, -, e0, e1, -⟩ := idx1 t
  funext y
  unfold iblk1
  rw [View.read_apply]
  show V c main_v18 _ = V c main_v18 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What the region leaves in its output array: the perceptron of every row of its input array as the region finds it,
    with the weights and the bias rows as the region finds them. -/
def G1 (c : Dev nD) : S53248x128.Idx → EReal :=
  Mlp.arr (V c main_v16 : S53248x128.Idx → EReal) (V c main_arg7 : S128x128.Idx → EReal) (fun k => (V c main_v17 : S1x128.Idx → EReal) (ix2 (0 : Fin 1) k))
    (V c main_arg9 : S128x128.Idx → EReal) (fun k => (V c main_v18 : S1x128.Idx → EReal) (ix2 (0 : Fin 1) k))

/-- What point `t` writes back is block `t` of that function. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S4096x128) hz, View.ld_unit_zero (S := S128x128) hz, View.ld_unit_zero (S := S1x128) hz]
  rw [iblk1_1_eq, iblk1_2_eq, iblk1_3_eq, iblk1_4_eq]
  obtain ⟨-, -, -, -, -, -, -, -, -, -, e0, e1⟩ := idx1 t
  have hN : cfg1.N = 13 := N_1
  funext (y : S4096x128.Idx)
  obtain ⟨p, q, rfl⟩ : ∃ (p : Fin 4096) (q : Fin 128), y = ix2 p q := ⟨y 0, y 1, eq_ix2 y⟩
  have hp : t.val * 4096 + p.val < 53248 := by have := t.isLt; have := p.isLt; omega
  have hemb : ((cfg1.win 5).blk t).view.emb (ix2 p q) = (ix2 (⟨t.val * 4096 + p.val, hp⟩ : Fin 53248) q : S53248x128.Idx) := by
    funext a; apply Fin.ext
    match a with
    | ⟨0, _⟩ => show win1_5.index t (0 : Fin 2) * 4096 + 1 * p.val = t.val * 4096 + p.val; rw [e0]; omega
    | ⟨1, _⟩ => show win1_5.index t (1 : Fin 2) * 128 + 1 * q.val = q.val; rw [e1]; omega
  rw [View.read_apply, hemb]
  refine (Payload.pay1_apply _ _ _ _ _ p q).trans ?_
  unfold G1
  rw [Mlp.arr_apply]
  refine Mlp.row_congr (fun l => ?_) _ _ _ _ q
  exact iblk1_0_apply V c t (ix2 p l) (ix2 (⟨t.val * 4096 + p.val, hp⟩ : Fin 53248) l) rfl rfl

/-- Every row of the array lies in the block of the point `row / 4096`. -/
theorem cover1 (c : Dev nD) (i : S53248x128.Idx) :
    ∃ t : Fin cfg1.N, (cfg1.win 5).flush t = true ∧ i ∈ ((cfg1.win 5).blk t).view.set := by
  have hi0 : (i 0).val < 53248 := idx2_lt0 i
  have hi1 : (i 1).val < 128 := idx2_lt1 i
  have hN : cfg1.N = 13 := N_1
  have ht : (i 0).val / 4096 < cfg1.N := by rw [hN]; omega
  obtain ⟨-, -, -, -, -, -, -, -, -, -, e0, e1⟩ := idx1 ⟨(i 0).val / 4096, ht⟩
  refine ⟨⟨(i 0).val / 4096, ht⟩, flush1_5 _, ?_⟩
  show i ∈ ((View.whole main_v19).slice (win1_5.rect ⟨(i 0).val / 4096, ht⟩)).set
  rw [View.set_slice_whole, Rect.mem_set_unit]
  intro a
  match a with
  | ⟨0, _⟩ =>
    show win1_5.index ⟨(i 0).val / 4096, ht⟩ (0 : Fin 2) * 4096 ≤ (i 0).val ∧ (i 0).val < win1_5.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win1_5.index ⟨(i 0).val / 4096, ht⟩ (1 : Fin 2) * 128 ≤ (i 1).val ∧ (i 1).val < win1_5.index ⟨(i 0).val / 4096, ht⟩ (1 : Fin 2) * 128 + 128
    rw [e1]; omega

/-- So the output array ends holding that function, whole. -/
theorem final1 (c : Dev nD) : (dat1 V c).arrAt 5 cfg1.N = G1 V c :=
  (dat1 V c).arrAt_eq_of_cover 5 (G1 V c) (fun t _ => flushed1 V c t) (cover1 c)

end Cert.KernelIdeal.Blocks

end
-- ==== Proof.KTail.lean ====
/-
  The host operations both programs apply after a perceptron stage: the mean of the rows assigned to each segment.

  For an index vector `idx` and an array `y` of rows: the rows are scatter-added into a zero array at the positions
  `idx` names, a vector of ones is scatter-added likewise into a zero vector (the count of rows per segment), and the
  sums are divided by the counts, a count below one replaced by one. The kernel program and the reference apply these
  same operations with the same literals; they are carried here as ONE function of `(idx, y)` per stage and never opened.
-/
import proofs.«111494_j4363686773150_2_alg».proof.Proof.Gen.KernelIdeal
import Idealize.ShloMosaic.PureOps.Ideal

noncomputable section

namespace Cert.KernelIdeal.Tail

open Idealize.ShloMosaic Cert.KernelIdeal
open Cert.KernelIdeal.Facts₀

variable {F : FTy → Type} [FloatOps F]

/-- First stage: 1048576 rows averaged into 50000 segments. -/
def mean1 (idx : (⟨S1048576, .i32⟩ : BufTy).Contents (Elt F)) (y : (⟨S1048576x128, .f32⟩ : BufTy).Contents (Elt F)) :
    (⟨S50000x128, .f32⟩ : BufTy).Contents (Elt F) :=
  Host.divf (Host.scatterAdd scatter_S50000x128_S1048576x1_S1048576x128_1_0_0_1 (broadcastInDim S50000x128 ![] bcast_S_S50000x128 (constant S_ .f32 0x00000000#32)) (broadcastInDim S1048576x1 ![0] bcast_S1048576_S1048576x1_0 idx) y)
    (broadcastInDim S50000x128 ![0, 1] bcast_S50000x1_S50000x128_0_1 (broadcastInDim S50000x1 ![0] bcast_S50000_S50000x1_0 (maximumf (Host.scatterAdd scatter_S50000_S1048576x1_S1048576_n_0_0_1 (broadcastInDim S50000 ![] bcast_S_S50000 (constant S_ .f32 0x00000000#32)) (broadcastInDim S1048576x1 ![0] bcast_S1048576_S1048576x1_0 idx) (broadcastInDim S1048576 ![] bcast_S_S1048576 (constant S_ .f32 0x3F800000#32))) (broadcastInDim S50000 ![] bcast_S_S50000 (constant S_ .f32 0x3F800000#32)))))

/-- Second stage: 50000 rows averaged into 2000 segments. -/
def mean2 (idx : (⟨S50000, .i32⟩ : BufTy).Contents (Elt F)) (y : (⟨S50000x128, .f32⟩ : BufTy).Contents (Elt F)) :
    (⟨S2000x128, .f32⟩ : BufTy).Contents (Elt F) :=
  Host.divf (Host.scatterAdd scatter_S2000x128_S50000x1_S50000x128_1_0_0_1 (broadcastInDim S2000x128 ![] bcast_S_S2000x128 (constant S_ .f32 0x00000000#32)) (broadcastInDim S50000x1 ![0] bcast_S50000_S50000x1_0 idx) y)
    (broadcastInDim S2000x128 ![0, 1] bcast_S2000x1_S2000x128_0_1 (broadcastInDim S2000x1 ![0] bcast_S2000_S2000x1_0 (maximumf (Host.scatterAdd scatter_S2000_S50000x1_S50000_n_0_0_1 (broadcastInDim S2000 ![] bcast_S_S2000 (constant S_ .f32 0x00000000#32)) (broadcastInDim S50000x1 ![0] bcast_S50000_S50000x1_0 idx) (broadcastInDim S50000 ![] bcast_S_S50000 (constant S_ .f32 0x3F800000#32))) (broadcastInDim S2000 ![] bcast_S_S2000 (constant S_ .f32 0x3F800000#32)))))

end Cert.KernelIdeal.Tail

end
-- ==== Proof.KHost.lean ====
/-
  The buffers of the idealized kernel program between its segments, read back to the launch memory.

  Region 0 is entered after two reshapes of the first stage's biases: it finds the input array, the weights as launched
  and each bias as the row `[1, 128]` of the launched vector. Its output array, widened to f32 (the identity on the
  extended reals), is averaged into the first result. That result, padded below with rows of a constant, is region 1's
  input array; the second stage's weights and bias rows are again the launched ones. Region 1's output array, cut back to
  its first 50000 rows, is averaged into the second result.
-/
import proofs.«111494_j4363686773150_2_alg».proof.Proof.Gen.KernelIdeal.Frame
import proofs.«111494_j4363686773150_2_alg».proof.Proof.KBlocks
import proofs.«111494_j4363686773150_2_alg».proof.Proof.KTail
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.KernelIdeal.Facts₀ in
section

variable (m : (ℓ : Loc nD τ sig) → Buf (Elt Ideal) ℓ) (ρ : Dev nD → PrngReg)

/-! ## What region 0 finds -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg3 (c : Dev nD) : V1 m ρ c main_arg3 = m ((c : Thread nD τ).loc main_arg3) := by
  show StableHlo.after hostOps0 (W0 m ρ c) (Proc.devRef .tc main_arg3) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl
theorem V1_v0 (c : Dev nD) : V1 m ρ c main_v0 = shapeCast S1x128 (m ((c : Thread nD τ).loc main_arg4)) Facts₀.shapeCasts_S128_S1x128 := by
  show StableHlo.after hostOps0 (W0 m ρ c) (Proc.devRef .tc main_v0) = _
  after_results <;> rfl
theorem V1_v1 (c : Dev nD) : V1 m ρ c main_v1 = shapeCast S1x128 (m ((c : Thread nD τ).loc main_arg6)) Facts₀.shapeCasts_S128_S1x128 := by
  show StableHlo.after hostOps0 (W0 m ρ c) (Proc.devRef .tc main_v1) = _
  after_results <;> rfl

/-! ## Arguments no segment before region 1 writes -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results <;> rfl)

/-! ## The first result -/

/-- Region 0's output array: the first perceptron of every row of the input. -/
theorem W2_v2 (c : Dev nD) : W2 m ρ c (Proc.devRef .tc main_v2) = Blocks.G0 (V1 m ρ) c :=
  (W2_arr m ρ c 5).trans (Blocks.final0 (V1 m ρ) c)

/-- After the first averaging stretch the first result's buffer holds the mean of region 0's output rows. -/
theorem W3_v15 (c : Dev nD) : W3 m ρ c (Proc.devRef .tc main_v15)
    = Tail.mean1 (m ((c : Thread nD τ).loc main_arg1)) (extf (F := Ideal) .f32 (Blocks.G0 (V1 m ρ) c : FVec Ideal S1048576x128 .bf16) Facts₀.bitsLt_bf16_f32 : FVec Ideal S1048576x128 .f32) := by
  show StableHlo.after hostOps1 (W2 m ρ c) (Proc.devRef .tc main_v15) = _
  after_results
  rw [W2_v2, W2_arg1]
  rfl

/-- The padding call and the second stage's bias reshapes leave the first result's buffer alone. -/
theorem keep_v15 (X : Valuation τ sig (Elt Ideal)) :
    StableHlo.after hostOps1_2 (StableHlo.after hostOps1_1 X) (Proc.devRef .tc main_v15) = X (Proc.devRef .tc main_v15) := by
  after_results <;> rfl

/-- No later segment writes it: it ends as the first averaging stretch left it. -/
theorem W7_v15 (c : Dev nD) : W7 m ρ c (Proc.devRef .tc main_v15) = W3 m ρ c (Proc.devRef .tc main_v15) := by
  have h7 : W7 m ρ c (Proc.devRef .tc main_v15) = W6 m ρ c (Proc.devRef .tc main_v15) := by
    show StableHlo.after hostOps2 (W6 m ρ c) (Proc.devRef .tc main_v15) = _
    after_results <;> rfl
  exact h7.trans ((W6_of_ne m ρ c main_v15 (by decide)).trans (keep_v15 (W3 m ρ c)))

/-! ## What region 1 finds -/

/-- Its input array is the first result padded below. -/
theorem pad_v16 (X : Valuation τ sig (Elt Ideal)) :
    StableHlo.after hostOps1_2 (StableHlo.after hostOps1_1 X) (Proc.devRef .tc main_v16)
      = pad S53248x128 ![0, 0] ![3248, 0] ![0, 0] (X (Proc.devRef .tc main_v15)) (sitofp (F := Ideal) .f32 (X (Proc.devRef .tc main_c)))
          Facts₀.pads_S50000x128_S53248x128_032480_000 Facts₀.h_S_ := by
  after_results <;> rfl
theorem V5_v16 (c : Dev nD) : V5 m ρ c main_v16
    = pad S53248x128 ![0, 0] ![3248, 0] ![0, 0] (W3 m ρ c (Proc.devRef .tc main_v15)) (sitofp (F := Ideal) .f32 (W3 m ρ c (Proc.devRef .tc main_c)))
        Facts₀.pads_S50000x128_S53248x128_032480_000 Facts₀.h_S_ :=
  pad_v16 (W3 m ρ c)

theorem V5_arg7 (c : Dev nD) : V5 m ρ c main_arg7 = m ((c : Thread nD τ).loc main_arg7) := by
  show StableHlo.after hostOps1_2 (StableHlo.after hostOps1_1 (StableHlo.after hostOps1 (W2 m ρ c))) (Proc.devRef .tc main_arg7) = _
  after_results
  exact W2_arg7 m ρ c
theorem V5_arg9 (c : Dev nD) : V5 m ρ c main_arg9 = m ((c : Thread nD τ).loc main_arg9) := by
  show StableHlo.after hostOps1_2 (StableHlo.after hostOps1_1 (StableHlo.after hostOps1 (W2 m ρ c))) (Proc.devRef .tc main_arg9) = _
  after_results
  exact W2_arg9 m ρ c
theorem V5_arg2 (c : Dev nD) : V5 m ρ c main_arg2 = m ((c : Thread nD τ).loc main_arg2) := by
  show StableHlo.after hostOps1_2 (StableHlo.after hostOps1_1 (StableHlo.after hostOps1 (W2 m ρ c))) (Proc.devRef .tc main_arg2) = _
  after_results
  exact W2_arg2 m ρ c
theorem V5_v17 (c : Dev nD) : V5 m ρ c main_v17 = shapeCast S1x128 (m ((c : Thread nD τ).loc main_arg8)) Facts₀.shapeCasts_S128_S1x128 := by
  show StableHlo.after hostOps1_2 (StableHlo.after hostOps1_1 (StableHlo.after hostOps1 (W2 m ρ c))) (Proc.devRef .tc main_v17) = _
  after_results
  rw [W2_arg8]
  rfl
theorem V5_v18 (c : Dev nD) : V5 m ρ c main_v18 = shapeCast S1x128 (m ((c : Thread nD τ).loc main_arg10)) Facts₀.shapeCasts_S128_S1x128 := by
  show StableHlo.after hostOps1_2 (StableHlo.after hostOps1_1 (StableHlo.after hostOps1 (W2 m ρ c))) (Proc.devRef .tc main_v18) = _
  after_results
  rw [W2_arg10]
  rfl

/-! ## The second result -/

/-- Region 1's output array: the second perceptron of every row of its padded input. -/
theorem W6_v19 (c : Dev nD) : W6 m ρ c (Proc.devRef .tc main_v19) = Blocks.G1 (V5 m ρ) c :=
  (W6_arr m ρ c 5).trans (Blocks.final1 (V5 m ρ) c)

theorem W6_arg2 (c : Dev nD) : W6 m ρ c (Proc.devRef .tc main_arg2) = m ((c : Thread nD τ).loc main_arg2) :=
  (W6_of_ne m ρ c main_arg2 (by decide)).trans (V5_arg2 m ρ c)

/-- The second result: the mean of the first 50000 rows of region 1's output. -/
theorem W7_v32 (c : Dev nD) : W7 m ρ c (Proc.devRef .tc main_v32)
    = Tail.mean2 (m ((c : Thread nD τ).loc main_arg2))
        (extractStridedSlice S50000x128 ![0, 0] (Blocks.G1 (V5 m ρ) c) Facts₀.slices_S53248x128_S50000x128_0_0) := by
  show StableHlo.after hostOps2 (W6 m ρ c) (Proc.devRef .tc main_v32) = _
  after_results
  rw [W6_v19, W6_arg2]
  rfl

end

end Cert.KernelIdeal.Host

end
-- ==== Proof.KRun.lean ====
/-
  The idealized kernel program's run with its two results named.

  @main is seven segments: host operations, the first pallas_call, three stretches of host operations, the second
  pallas_call, host operations. The contents of the TensorCore's buffers at each boundary are a fold from the launch
  memory (the generated `W0 … W7`); the segments' run ends with every unscoped buffer at the last boundary's contents
  `W7`. Read here at the two result buffers and at the eleven argument buffers: each result ends at `W7` of its buffer,
  each argument as launched.
-/
import proofs.«111494_j4363686773150_2_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run_main : θ_run defs (onTc (τ := τ) (main (F := F))) ⟨m, fun _ => 0, ρ⟩ (fun r => ∀ c : Dev nD,
      r.2.mem ((c.tc : Thread nD τ).loc main_v15) = W7 m ρ c (Proc.devRef .tc main_v15)
      ∧ r.2.mem ((c.tc : Thread nD τ).loc main_v32) = W7 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v15 (by decide)),
       h c _ (mem_uc main_v32 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Results

end
-- ==== Proof.RefMlp.lean ====
/-
  The reference's two perceptron stages, entry by entry, and its two results as means.

  The reference computes `x @ w1.T + b1`, rectifies, computes `h @ w2.T + b2`: a transpose and a product contracting the
  transposed matrix's first axis read, at `(p, q)`, the sum over `l` of `x (p, l) * w (q, l)`; a bias vector broadcast to a
  row and then over the rows reads its own entry. So each stage is the row perceptron applied to every row. Each result
  is then the mean, by segment, of a stage's output rows: the same host operations the kernel program applies.
-/
import proofs.«111494_j4363686773150_2_alg».proof.Proof.Gen.ReferenceIdeal.Read
import proofs.«111494_j4363686773150_2_alg».proof.Proof.MlpRow
import proofs.«111494_j4363686773150_2_alg».proof.Proof.KTail

noncomputable section

open scoped BigOperators

namespace Cert.ReferenceIdeal.RefValue

open Idealize.ShloMosaic Idealize.ShloMosaic.ValueIdx Cert.ReferenceIdeal Cert.ReferenceIdeal.Read

/-- Two indices built from the same coordinates are equal: every coordinate computes. -/
local macro "idx_rfl" : tactic =>
  `(tactic| (funext a; apply Fin.ext; first | (match a with | ⟨0, _⟩ => rfl | ⟨1, _⟩ => rfl) | (match a with | ⟨0, _⟩ => rfl)))

/-- The first stage's output is the perceptron of every row of the first argument. -/
theorem stage1 (x0 : (⟨S1048576x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v10 (F := Ideal) x0 x3 x4 x5 x6 = Mlp.arr x0 x3 (fun k => x4 (ix1 k)) x5 (fun k => x6 (ix1 k)) := by
  funext i
  obtain ⟨p, q, rfl⟩ : ∃ (p : Fin 1048576) (q : Fin 128), i = ix2 p q := ⟨i 0, i 1, eq_ix2 i⟩
  rw [Mlp.arr_apply]
  unfold Mlp.row Mlp.hidden
  rw [val_main_v10_apply, val_main_v7_apply, val_main_v9_apply, val_main_v8_apply]
  simp only [val_main_v5_apply, val_main_v4_apply, val_main_v1_apply, val_main_v3_apply, val_main_v2_apply, val_main_v0_apply,
    val_main_v6_apply, val_main_call0_v0_apply, val_main_call0_cst_apply, Ideal.addf_def, Ideal.maximumf_def, Ideal.ofBits_def]
  refine congrArg₂ (· + ·) (Finset.sum_congr rfl fun k _ => ?_) (congrArg x6 ?_)
  · refine congrArg₂ (· * ·) (congrArg₂ max (congrArg₂ (· + ·) (Finset.sum_congr rfl fun l _ =>
      congrArg₂ (· * ·) (congrArg x0 ?_) (congrArg x3 ?_)) (congrArg x4 ?_)) rfl) (congrArg x5 ?_)
    all_goals idx_rfl
  · idx_rfl

/-- The second stage's output is the perceptron of every row of the first result. -/
theorem stage2 (x0 : (⟨S1048576x128, .f32⟩ : BufTy).Contents (Elt Ideal)) (x1 : (⟨S1048576, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    val_main_v33 (F := Ideal) x0 x1 x3 x4 x5 x6 x7 x8 x9 x10
      = Mlp.arr (val_main_v22 (F := Ideal) x0 x1 x3 x4 x5 x6) x7 (fun k => x8 (ix1 k)) x9 (fun k => x10 (ix1 k)) := by
  funext i
  obtain ⟨p, q, rfl⟩ : ∃ (p : Fin 50000) (q : Fin 128), i = ix2 p q := ⟨i 0, i 1, eq_ix2 i⟩
  rw [Mlp.arr_apply]
  unfold Mlp.row Mlp.hidden
  rw [val_main_v33_apply, val_main_v30_apply, val_main_v32_apply, val_main_v31_apply]
  refine congrArg₂ (· + ·) (Finset.sum_congr rfl fun k _ => ?_) (congrArg x10 (by idx_rfl))
  rw [val_main_v28_apply, val_main_v27_apply, val_main_v24_apply, val_main_v26_apply, val_main_v25_apply, val_main_v29_apply,
    val_main_call1_v0_apply, val_main_call1_cst_apply]
  generalize val_main_v22 (F := Ideal) x0 x1 x3 x4 x5 x6 = y
  refine congrArg₂ (· * ·) (congrArg₂ max (congrArg₂ (· + ·) (Finset.sum_congr rfl fun l _ => ?_) (congrArg x8 (by idx_rfl))) rfl)
    (congrArg x9 (by idx_rfl))
  rw [val_main_v23_apply]
  exact congrArg₂ (· * ·) (congrArg y (by idx_rfl)) (congrArg x7 (by idx_rfl))

end Cert.ReferenceIdeal.RefValue

end
-- ==== Proof.Bridge.lean ====
/-
  The bridge: both programs' two results are the same two functions of the arguments.

  First result: the mean, by the first assignment vector, of the first perceptron applied to every row of the input.
  Second result: the mean, by the second assignment vector, of the second perceptron applied to every row of the first
  result. The kernel program pads the first result with 3248 more rows before its second pallas_call and cuts them off
  afterwards; since a perceptron's output row depends on its own input row only, the first 50000 output rows are the
  perceptron of the first result's rows, whatever the padding holds. No law beyond re-indexing the sums is needed, so
  the finiteness of the inputs is never used.
-/
import proofs.«111494_j4363686773150_2_alg».proof.Proof.KHost
import proofs.«111494_j4363686773150_2_alg».proof.Proof.KRun
import proofs.«111494_j4363686773150_2_alg».proof.Proof.RefMlp
import Idealize.ShloMosaic.Lib.KernelVsHost
import Idealize.ShloMosaic.Lib.ValueLayout

set_option maxRecDepth 16384

noncomputable section

namespace Cert.Mlp

/-- The row perceptron only sees the values of its row and of its biases. -/
theorem row_congr3 {x x' b1 b1' b2 b2' : Fin 128 → EReal} (hx : ∀ l, x l = x' l) (h1 : ∀ k, b1 k = b1' k) (h2 : ∀ k, b2 k = b2' k)
    (w1 w2 : Fin 128 → Fin 128 → EReal) (q : Fin 128) : row x w1 b1 w2 b2 q = row x' w1 b1' w2 b2' q := by
  rw [show x = x' from funext hx, show b1 = b1' from funext h1, show b2 = b2' from funext h2]

end Cert.Mlp

namespace Cert.Bridge

open Idealize.ShloMosaic Idealize.ShloMosaic.TcCoe Idealize.SL.Sem Idealize.ShloMosaic.ValueIdx
open Cert.KernelIdeal Cert.KernelIdeal.Gen

/-! ## The two results as functions of the argument arrays -/

/-- The first result. -/
def res1 (x0 : (⟨S1048576x128, .f32⟩ : BufTy).Contents (Elt Ideal)) (x1 : (⟨S1048576, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    (⟨S50000x128, .f32⟩ : BufTy).Contents (Elt Ideal) :=
  Tail.mean1 x1 (Mlp.arr x0 x3 (fun k => x4 (ix1 k)) x5 (fun k => x6 (ix1 k)))

/-- The second result, from the first. -/
def res2 (y : (⟨S50000x128, .f32⟩ : BufTy).Contents (Elt Ideal)) (x2 : (⟨S50000, .i32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    (⟨S2000x128, .f32⟩ : BufTy).Contents (Elt Ideal) :=
  Tail.mean2 x2 (Mlp.arr y x7 (fun k => x8 (ix1 k)) x9 (fun k => x10 (ix1 k)))

/-! ## The kernel program -/

section Kernel

variable (m : (ℓ : Loc nD τ sig) → Buf (Elt Ideal) ℓ) (ρ : Dev nD → PrngReg)

/-- Region 0's output array in terms of the launch memory. -/
theorem G0_eq (c : Dev nD) : Blocks.G0 (V1 m ρ) c
    = Mlp.arr (m ((c : Thread nD τ).loc main_arg0)) (m ((c : Thread nD τ).loc main_arg3)) (fun k => m ((c : Thread nD τ).loc main_arg4) (ix1 k))
        (m ((c : Thread nD τ).loc main_arg5)) (fun k => m ((c : Thread nD τ).loc main_arg6) (ix1 k)) := by
  unfold Blocks.G0
  rw [Host.V1_arg0, Host.V1_arg3, Host.V1_arg5, Host.V1_v0, Host.V1_v1]
  refine congrArg₂ (fun b1 b2 => Mlp.arr _ _ b1 _ b2) (funext fun k => ?_) (funext fun k => ?_)
  · exact shapeCast_a_1a_apply _ _ (0 : Fin 1) k
  · exact shapeCast_a_1a_apply _ _ (0 : Fin 1) k

/-- The kernel program's first result. -/
theorem kernel_res1 (c : Dev nD) : W7 m ρ c (Proc.devRef .tc main_v15)
    = res1 (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  rw [Host.W7_v15, Host.W3_v15, G0_eq]
  rfl

/-- The first 50000 rows of region 1's output: the second perceptron of the rows of what the first averaging stretch left. -/
theorem slice_G1 (c : Dev nD) :
    extractStridedSlice S50000x128 ![0, 0] (Blocks.G1 (V5 m ρ) c) Facts₀.slices_S53248x128_S50000x128_0_0
      = Mlp.arr (W3 m ρ c (Proc.devRef .tc main_v15)) (m ((c : Thread nD τ).loc main_arg7)) (fun k => m ((c : Thread nD τ).loc main_arg8) (ix1 k))
          (m ((c : Thread nD τ).loc main_arg9)) (fun k => m ((c : Thread nD τ).loc main_arg10) (ix1 k)) := by
  funext i
  obtain ⟨r, q, rfl⟩ : ∃ (r : Fin 50000) (q : Fin 128), i = ix2 r q := ⟨i 0, i 1, eq_ix2 i⟩
  have hr : r.val < 53248 := by have := r.isLt; omega
  refine (slice2_axis0_apply 0 _ _ r q (⟨r.val, hr⟩ : Fin 53248) (by show r.val = 0 + r.val; omega)).trans ?_
  unfold Blocks.G1
  rw [Mlp.arr_apply, Mlp.arr_apply, Host.V5_arg7, Host.V5_arg9, Host.V5_v17, Host.V5_v18, Host.V5_v16]
  refine Mlp.row_congr3 (fun l => ?_) (fun k => ?_) (fun k => ?_) _ _ q
  · refine pad_apply_of_inside _ _ _ _ _ _ _ (ix2 (⟨r.val, hr⟩ : Fin 53248) l) (ix2 r l) (fun a => ?_)
    match a with
    | ⟨0, _⟩ => show r.val = 0 + r.val * (0 + 1); omega
    | ⟨1, _⟩ => show l.val = 0 + l.val * (0 + 1); omega
  · exact shapeCast_a_1a_apply _ _ (0 : Fin 1) k
  · exact shapeCast_a_1a_apply _ _ (0 : Fin 1) k

/-- The kernel program's second result. -/
theorem kernel_res2 (c : Dev nD) : W7 m ρ c (Proc.devRef .tc main_v32)
    = res2 (res1 (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)))
        (m ((c : Thread nD τ).loc main_arg2)) (m ((c : Thread nD τ).loc main_arg7)) (m ((c : Thread nD τ).loc main_arg8))
        (m ((c : Thread nD τ).loc main_arg9)) (m ((c : Thread nD τ).loc main_arg10)) := by
  rw [Host.W7_v32, slice_G1, ← Host.W7_v15, kernel_res1]
  rfl

/-- The kernel program's run with both results named. -/
theorem kernel_run : θ_run defs (onTc (τ := τ) (main (F := Ideal))) ⟨m, fun _ => 0, ρ⟩ (fun r => ∀ c : Dev nD,
      r.2.mem ((c.tc : Thread nD τ).loc main_v15) = res1 (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
      ∧ r.2.mem ((c.tc : Thread nD τ).loc main_v32) = res2 (res1 (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)))
        (m ((c : Thread nD τ).loc main_arg2)) (m ((c : Thread nD τ).loc main_arg7)) (m ((c : Thread nD τ).loc main_arg8))
        (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (kernel_res1 m ρ c), (h c).2.1.trans (kernel_res2 m ρ c), (h c).2.2⟩)
    (Cert.KernelIdeal.Results.run_main (F := Ideal) m ρ)

end Kernel

/-! ## The reference -/

open Cert.ReferenceIdeal.Read in
/-- The reference's first result. -/
theorem ref_res1 (x0 : (⟨S1048576x128, .f32⟩ : BufTy).Contents (Elt Ideal)) (x1 : (⟨S1048576, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v22 (F := Ideal) x0 x1 x3 x4 x5 x6 = res1 x0 x1 x3 x4 x5 x6 := by
  have h : val_main_v22 (F := Ideal) x0 x1 x3 x4 x5 x6 = Tail.mean1 x1 (val_main_v10 (F := Ideal) x0 x3 x4 x5 x6) := rfl
  rw [h, Cert.ReferenceIdeal.RefValue.stage1]
  rfl

open Cert.ReferenceIdeal.Read in
/-- The reference's second result. -/
theorem ref_res2 (x0 : (⟨S1048576x128, .f32⟩ : BufTy).Contents (Elt Ideal)) (x1 : (⟨S1048576, .i32⟩ : BufTy).Contents (Elt Ideal))
    (x2 : (⟨S50000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    val_main_v45 (F := Ideal) x0 x1 x2 x3 x4 x5 x6 x7 x8 x9 x10 = res2 (res1 x0 x1 x3 x4 x5 x6) x2 x7 x8 x9 x10 := by
  have h : val_main_v45 (F := Ideal) x0 x1 x2 x3 x4 x5 x6 x7 x8 x9 x10
      = Tail.mean2 x2 (val_main_v33 (F := Ideal) x0 x1 x3 x4 x5 x6 x7 x8 x9 x10) := rfl
  rw [h, Cert.ReferenceIdeal.RefValue.stage2, ref_res1]
  rfl

end Cert.Bridge

end
-- ==== Proof.lean ====
/-
  The certificate of a two-stage hierarchical pooling kernel against its jnp reference.

  Each stage applies a two-layer perceptron (linear, rectifier, linear) to every row of an array and then averages the
  rows by segment. The kernel program runs each perceptron as a pallas_call over blocks of rows (the second one on the
  first result padded with extra rows, which are cut off afterwards) and does the averaging on the host; the reference
  does everything on the host. On the extended reals both are the same two functions of the arguments:
  a matrix product into a zero accumulator and the host's dot product are the same sum, changes of float format are the
  identity, the averaging operations are literally the same, and the padding never reaches the rows that are kept.
  The frames are the generated ones; the idealization rewrote nothing, so `preserves` is trivial.
-/
import proofs.«111494_j4363686773150_2_alg».proof.Defs
import proofs.«111494_j4363686773150_2_alg».proof.Proof.Gen.Kernel
import proofs.«111494_j4363686773150_2_alg».proof.Proof.Gen.Kernel.Frame
import proofs.«111494_j4363686773150_2_alg».proof.Proof.Gen.KernelIdeal
import proofs.«111494_j4363686773150_2_alg».proof.Proof.Gen.KernelIdeal.Frame
import proofs.«111494_j4363686773150_2_alg».proof.Proof.Gen.ReferenceIdeal
import proofs.«111494_j4363686773150_2_alg».proof.Proof.Gen.Pre_finite_inputs
import proofs.«111494_j4363686773150_2_alg».proof.Proof.Gen.ReferenceIdeal.Run
import proofs.«111494_j4363686773150_2_alg».proof.Proof.Gen.ReferenceIdeal.Read
import proofs.«111494_j4363686773150_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the first result at the mean of the first perceptron's rows and the second at the mean of the
    second perceptron's rows of the first result, as functions of arguments that agree. -/
theorem algebraic : Cert.algebraic_KernelIdeal_ReferenceIdeal := by
  intro m ρ m' ρ' _ hagree
  refine ⟨_, _, Cert.Bridge.kernel_run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.Read.val_main_v22_eq, a0, a1, a3, a4, a5, a6]
    exact Cert.Bridge.ref_res1 _ _ _ _ _ _
  · rw [Cert.ReferenceIdeal.Read.val_main_v45_eq, a0, a1, a2, a3, a4, a5, a6, a7, a8, a9, a10]
    exact Cert.Bridge.ref_res2 _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
